-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4096 : Shape := ⟨2, ![256, 4096]⟩
abbrev S14336x4096 : Shape := ⟨2, ![14336, 4096]⟩
abbrev S14336x64 : Shape := ⟨2, ![14336, 64]⟩
abbrev S14336 : Shape := ⟨1, ![14336]⟩
abbrev S_ : Shape := ⟨0, ![]⟩

class Facts : Prop where
  bcast_S_S256x4096 : S_.BroadcastsInDim S256x4096 (![] : Fin 0 → Fin S256x4096.rank)
  reducesTo_S256x4096_S_d0_1 : S256x4096.ReducesTo [0, 1] S_
  h_S_ : 0 < S_.numel
  bcast_S_S14336x64 : S_.BroadcastsInDim S14336x64 (![] : Fin 0 → Fin S14336x64.rank)
  reducesTo_S14336x64_S_d0_1 : S14336x64.ReducesTo [0, 1] S_
  bcast_S_S14336 : S_.BroadcastsInDim S14336 (![] : Fin 0 → Fin S14336.rank)
  reducesTo_S14336_S_d0 : S14336.ReducesTo [0] S_

variable [Facts]

def fn_part1 {F : FTy → Type} [FloatOps F] (main_v13 : IVec S_ 1) (main_v16 : IVec S14336 1) : IVec S_ 1 :=
  let main_c_5 : IVec S_ 1 := constantI S_ 1 1#1
  let main_v17 : IVec S_ 1 := (fun x v => Host.reduce IntOp.andi x v reducesTo_S14336_S_d0 h_S_) main_v16 main_c_5
  let main_v18 : IVec S_ 1 := andi main_v13 main_v17
  main_v18

def fn {F : FTy → Type} [FloatOps F] (main_arg0 : FVec F S256x4096 .f32) (main_arg1 : IVec S14336x4096 32) (main_arg2 : FVec F S14336x64 .f32) (main_arg3 : FVec F S14336x64 .f32) (main_arg4 : FVec F S14336 .f32) : IVec S_ 1 :=
  let main_v0 : FVec F S256x4096 .f32 := Host.absf main_arg0
  let main_cst : FVec F S_ .f32 := constant S_ .f32 0x7F800000#32
  let main_v1 : FVec F S256x4096 .f32 := broadcastInDim S256x4096 ![] bcast_S_S256x4096 main_cst
  let main_v2 : IVec S256x4096 1 := cmpf .olt main_v0 main_v1
  let main_c : IVec S_ 1 := constantI S_ 1 1#1
  let main_v3 : IVec S_ 1 := (fun x v => Host.reduce IntOp.andi x v reducesTo_S256x4096_S_d0_1 h_S_) main_v2 main_c
  let main_v4 : FVec F S14336x64 .f32 := Host.absf main_arg2
  let main_cst_0 : FVec F S_ .f32 := constant S_ .f32 0x7F800000#32
  let main_v5 : FVec F S14336x64 .f32 := broadcastInDim S14336x64 ![] bcast_S_S14336x64 main_cst_0
  let main_v6 : IVec S14336x64 1 := cmpf .olt main_v4 main_v5
  let main_c_1 : IVec S_ 1 := constantI S_ 1 1#1
  let main_v7 : IVec S_ 1 := (fun x v => Host.reduce IntOp.andi x v reducesTo_S14336x64_S_d0_1 h_S_) main_v6 main_c_1
  let main_v8 : IVec S_ 1 := andi main_v3 main_v7
  let main_v9 : FVec F S14336x64 .f32 := Host.absf main_arg3
  let main_cst_2 : FVec F S_ .f32 := constant S_ .f32 0x7F800000#32
  let main_v10 : FVec F S14336x64 .f32 := broadcastInDim S14336x64 ![] bcast_S_S14336x64 main_cst_2
  let main_v11 : IVec S14336x64 1 := cmpf .olt main_v9 main_v10
  let main_c_3 : IVec S_ 1 := constantI S_ 1 1#1
  let main_v12 : IVec S_ 1 := (fun x v => Host.reduce IntOp.andi x v reducesTo_S14336x64_S_d0_1 h_S_) main_v11 main_c_3
  let main_v13 : IVec S_ 1 := andi main_v8 main_v12
  let main_v14 : FVec F S14336 .f32 := Host.absf main_arg4
  let main_cst_4 : FVec F S_ .f32 := constant S_ .f32 0x7F800000#32
  let main_v15 : FVec F S14336 .f32 := broadcastInDim S14336 ![] bcast_S_S14336 main_cst_4
  let main_v16 : IVec S14336 1 := cmpf .olt main_v14 main_v15
  fn_part1 (F := F) main_v13 main_v16
-- ==== Kernel.lean ====
abbrev S256x4096 : Shape := ⟨2, ![256, 4096]⟩
abbrev S14336x4096 : Shape := ⟨2, ![14336, 4096]⟩
abbrev S14336x64 : Shape := ⟨2, ![14336, 64]⟩
abbrev S14336 : Shape := ⟨1, ![14336]⟩
abbrev S1x14336 : Shape := ⟨2, ![1, 14336]⟩
abbrev S4096 : Shape := ⟨1, ![4096]⟩
abbrev S_ : Shape := ⟨0, ![]⟩
abbrev S64 : Shape := ⟨1, ![64]⟩
abbrev S64x1 : Shape := ⟨2, ![64, 1]⟩
abbrev S1x4096 : Shape := ⟨2, ![1, 4096]⟩
abbrev S64x4096 : Shape := ⟨2, ![64, 4096]⟩
abbrev S256x14336 : Shape := ⟨2, ![256, 14336]⟩
abbrev S256x64 : Shape := ⟨2, ![256, 64]⟩
abbrev S1x256 : Shape := ⟨2, ![1, 256]⟩
abbrev S256x256 : Shape := ⟨2, ![256, 256]⟩

abbrev nBuf : Space → Nat
  | .hbm => 33
  | .vmem => 12
  | .smem => 0
  | _ => 0

abbrev bufTy : (tb : Table) → Fin (tcTables nBuf tb) → BufTy
  | .hbm, ⟨0, _⟩ => ⟨S256x4096, .f32⟩
  | .hbm, ⟨1, _⟩ => ⟨S14336x4096, .i32⟩
  | .hbm, ⟨2, _⟩ => ⟨S14336x64, .f32⟩
  | .hbm, ⟨3, _⟩ => ⟨S14336x64, .f32⟩
  | .hbm, ⟨4, _⟩ => ⟨S14336, .f32⟩
  | .hbm, ⟨5, _⟩ => ⟨S1x14336, .f32⟩
  | .hbm, ⟨6, _⟩ => ⟨S4096, .i32⟩
  | .hbm, ⟨7, _⟩ => ⟨S_, .i32⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S4096, .i32⟩
  | .hbm, ⟨12, _⟩ => ⟨S_, .i32⟩
  | .hbm, ⟨13, _⟩ => ⟨S4096, .i32⟩
  | .hbm, ⟨14, _⟩ => ⟨S4096, .i1⟩
  | .hbm, ⟨15, _⟩ => ⟨S4096, .i32⟩
  | .hbm, ⟨16, _⟩ => ⟨S4096, .i32⟩
  | .hbm, ⟨17, _⟩ => ⟨S_, .i32⟩
  | .hbm, ⟨18, _⟩ => ⟨S4096, .i32⟩
  | .hbm, ⟨19, _⟩ => ⟨S4096, .i1⟩
  | .hbm, ⟨20, _⟩ => ⟨S4096, .i1⟩
  | .hbm, ⟨21, _⟩ => ⟨S_, .i32⟩
  | .hbm, ⟨22, _⟩ => ⟨S4096, .i32⟩
  | .hbm, ⟨23, _⟩ => ⟨S4096, .i32⟩
  | .hbm, ⟨24, _⟩ => ⟨S4096, .i32⟩
  | .hbm, ⟨25, _⟩ => ⟨S64, .i32⟩
  | .hbm, ⟨26, _⟩ => ⟨S64x1, .i32⟩
  | .hbm, ⟨27, _⟩ => ⟨S1x4096, .i32⟩
  | .hbm, ⟨28, _⟩ => ⟨S64x4096, .i32⟩
  | .hbm, ⟨29, _⟩ => ⟨S64x4096, .i32⟩
  | .hbm, ⟨30, _⟩ => ⟨S64x4096, .i1⟩
  | .hbm, ⟨31, _⟩ => ⟨S64x4096, .bf16⟩
  | .hbm, ⟨32, _⟩ => ⟨S256x14336, .f32⟩
  | .local _ .vmem, ⟨0, _⟩ => ⟨S256x4096, .f32⟩
  | .local _ .vmem, ⟨1, _⟩ => ⟨S256x4096, .i32⟩
  | .local _ .vmem, ⟨2, _⟩ => ⟨S256x4096, .i32⟩
  | .local _ .vmem, ⟨3, _⟩ => ⟨S256x64, .f32⟩
  | .local _ .vmem, ⟨4, _⟩ => ⟨S256x64, .f32⟩
  | .local _ .vmem, ⟨5, _⟩ => ⟨S256x64, .f32⟩
  | .local _ .vmem, ⟨6, _⟩ => ⟨S256x64, .f32⟩
  | .local _ .vmem, ⟨7, _⟩ => ⟨S1x256, .f32⟩
  | .local _ .vmem, ⟨8, _⟩ => ⟨S1x256, .f32⟩
  | .local _ .vmem, ⟨9, _⟩ => ⟨S64x4096, .bf16⟩
  | .local _ .vmem, ⟨10, _⟩ => ⟨S256x256, .f32⟩
  | .local _ .vmem, ⟨11, _⟩ => ⟨S256x256, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![56], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S64x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S14336_S1x14336 : S14336.ShapeCasts S1x14336
  bcast_S_S4096 : S_.BroadcastsInDim S4096 (![] : Fin 0 → Fin S4096.rank)
  bcast_S64_S64x1_0 : S64.BroadcastsInDim S64x1 (![0] : Fin 1 → Fin S64x1.rank)
  bcast_S4096_S1x4096_1 : S4096.BroadcastsInDim S1x4096 (![1] : Fin 1 → Fin S1x4096.rank)
  bcast_S64x1_S64x4096_0_1 : S64x1.BroadcastsInDim S64x4096 (![0, 1] : Fin 2 → Fin S64x4096.rank)
  bcast_S1x4096_S64x4096_0_1 : S1x4096.BroadcastsInDim S64x4096 (![0, 1] : Fin 2 → Fin S64x4096.rank)
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  dot_S256x64_S64x4096_S256x4096_1_0_0_1_n_n_wf : DotDims.WF S256x64 S64x4096 S256x4096 [1] [0] [0] [1] [] []
  dot_S256x4096_S256x4096_S256x256_1_1_0_0_n_n_wf : DotDims.WF S256x4096 S256x4096 S256x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S256x4096.size a
  hwx0_0 : ∀ i : grid0.Coords, EltTy.bits .f32 = 32 ∨ (Rect.block (s := S256x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S14336x4096.size a
  hwx0_1 : ∀ i : grid0.Coords, EltTy.bits .i32 = 32 ∨ (Rect.block (s := S14336x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S14336x64.size a
  hwx0_2 : ∀ i : grid0.Coords, EltTy.bits .f32 = 32 ∨ (Rect.block (s := S14336x64) S256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S14336x64.size a
  hwx0_3 : ∀ i : grid0.Coords, EltTy.bits .f32 = 32 ∨ (Rect.block (s := S14336x64) S256x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x14336.size a
  hwx0_4 : ∀ i : grid0.Coords, EltTy.bits .f32 = 32 ∨ (Rect.block (s := S1x14336) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x4096.size a ≤ S64x4096.size a
  hwx0_5 : ∀ i : grid0.Coords, EltTy.bits .bf16 = 32 ∨ (Rect.block (s := S64x4096) S64x4096.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x14336.size a
  hwx0_6 : ∀ i : grid0.Coords, EltTy.bits .f32 = 32 ∨ (Rect.block (s := S256x14336) S256x256.size (cc0_transform_6 i) (hinb0_6 i)).WholeWords (EltTy.packing .f32)

variable [Facts₀]

def dot_S256x64_S64x4096_S256x4096_1_0_0_1_n_n : DotDims S256x64 S64x4096 S256x4096 where
  lhsContracting := [1]
  rhsContracting := [0]
  lhsNonContracting := [0]
  rhsNonContracting := [1]
  lhsBatch := []
  rhsBatch := []
  wf := dot_S256x64_S64x4096_S256x4096_1_0_0_1_n_n_wf
def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf

abbrev win0_0 : Pipeline.Window sig grid0 :=
  Pipeline.Window.ofSpec (Memref.whole main_arg0) S256x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9) S64x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S256x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S256x4096 : Shape := ⟨2, ![256, 4096]⟩
abbrev S14336x4096 : Shape := ⟨2, ![14336, 4096]⟩
abbrev S14336x64 : Shape := ⟨2, ![14336, 64]⟩
abbrev S14336 : Shape := ⟨1, ![14336]⟩
abbrev S14336x64x64 : Shape := ⟨3, ![14336, 64, 64]⟩
abbrev S14336x64x1 : Shape := ⟨3, ![14336, 64, 1]⟩
abbrev S256x14336 : Shape := ⟨2, ![256, 14336]⟩
abbrev S1x14336 : Shape := ⟨2, ![1, 14336]⟩

abbrev nBuf : Space → Nat
  | .hbm => 18
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S14336x4096, .i32⟩
  | .hbm, ⟨2, _⟩ => ⟨S14336x64, .f32⟩
  | .hbm, ⟨3, _⟩ => ⟨S14336x64, .f32⟩
  | .hbm, ⟨4, _⟩ => ⟨S14336, .f32⟩
  | .hbm, ⟨5, _⟩ => ⟨S14336x4096, .f32⟩
  | .hbm, ⟨6, _⟩ => ⟨S14336x64x64, .f32⟩
  | .hbm, ⟨7, _⟩ => ⟨S14336x64x1, .f32⟩
  | .hbm, ⟨8, _⟩ => ⟨S14336x64x64, .f32⟩
  | .hbm, ⟨9, _⟩ => ⟨S14336x64x64, .f32⟩
  | .hbm, ⟨10, _⟩ => ⟨S14336x64x1, .f32⟩
  | .hbm, ⟨11, _⟩ => ⟨S14336x64x64, .f32⟩
  | .hbm, ⟨12, _⟩ => ⟨S14336x64x64, .f32⟩
  | .hbm, ⟨13, _⟩ => ⟨S14336x4096, .f32⟩
  | .hbm, ⟨14, _⟩ => ⟨S256x14336, .f32⟩
  | .hbm, ⟨15, _⟩ => ⟨S1x14336, .f32⟩
  | .hbm, ⟨16, _⟩ => ⟨S256x14336, .f32⟩
  | .hbm, ⟨17, _⟩ => ⟨S256x14336, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  shapeCasts_S14336x4096_S14336x64x64 : S14336x4096.ShapeCasts S14336x64x64
  bcast_S14336x64_S14336x64x1_0_1 : S14336x64.BroadcastsInDim S14336x64x1 (![0, 1] : Fin 2 → Fin S14336x64x1.rank)
  bcast_S14336x64x1_S14336x64x64_0_1_2 : S14336x64x1.BroadcastsInDim S14336x64x64 (![0, 1, 2] : Fin 3 → Fin S14336x64x64.rank)
  shapeCasts_S14336x64x64_S14336x4096 : S14336x64x64.ShapeCasts S14336x4096
  bcast_S14336_S1x14336_1 : S14336.BroadcastsInDim S1x14336 (![1] : Fin 1 → Fin S1x14336.rank)
  bcast_S1x14336_S256x14336_0_1 : S1x14336.BroadcastsInDim S256x14336 (![0, 1] : Fin 2 → Fin S256x14336.rank)
  dot_S256x4096_S14336x4096_S256x14336_1_1_0_0_n_n_wf : DotDims.WF S256x4096 S14336x4096 S256x14336 [1] [1] [0] [0] [] []

variable [Facts₀]

def dot_S256x4096_S14336x4096_S256x14336_1_1_0_0_n_n : DotDims S256x4096 S14336x4096 S256x14336 where
  lhsContracting := [1]
  rhsContracting := [1]
  lhsNonContracting := [0]
  rhsNonContracting := [0]
  lhsBatch := []
  rhsBatch := []
  wf := dot_S256x4096_S14336x4096_S256x14336_1_1_0_0_n_n_wf

class Facts : Prop extends Facts₀ where

variable [Facts]
-- ==== Proof.DequantSpec.lean ====
/-
  The function both programs compute, stated once over the argument arrays.

  An activation matrix x [256 tokens, 4096 features] is multiplied by a weight matrix that is stored as integer codes
  q [14336 channels, 4096 features] (32-bit words, read as signed integers) with one scale and one zero point per channel and per GROUP of 64 consecutive
  features: the weight of channel o at feature k is (q[o,k] - zero[o, k/64]) * scale[o, k/64]. The result at
  (token t, channel o) is the sum over the features k of x[t,k] times that weight, plus the channel's bias.

  The kernel spreads a channel's 64 per-group values over its 4096 features by multiplying the row of group values
  with the 0/1 matrix "g is the group of k": a sum of 64 products of which 63 vanish. On the extended reals
  0 * a = 0 and a * 1 = a for EVERY a, so the sum is the selected group value with no finiteness assumption
  (`sum_indicator`).
-/
import Idealize.ShloMosaic.PureOps.Ideal
import Idealize.ShloMosaic.Lib.ValueIdx

noncomputable section

namespace Cert.Dequant

open Idealize.ShloMosaic Idealize.ShloMosaic.ValueIdx

/-- The group of feature `k`: features come in 64 groups of 64 consecutive ones. -/
def grp (k : Fin 4096) : Fin 64 := ⟨k.val / 64, by have := k.isLt; omega⟩

theorem grp_val (k : Fin 4096) : (grp k).val = k.val / 64 := rfl

/-- A row of 64 per-group values summed against the indicator of "g is the group of k" is the value of k's group:
    the other 63 products are `a * 0 = 0`, also at the infinities. -/
theorem sum_indicator (s e : Fin 64 → EReal) (k : Fin 4096)
    (he : ∀ g : Fin 64, e g = if g.val = k.val / 64 then 1 else 0) :
    ∑ g : Fin 64, s g * e g = s (grp k) := by
  rw [Finset.sum_eq_single (grp k)]
  · rw [he, if_pos (grp_val k), mul_one]
  · intro g _ hg
    rw [he, if_neg (fun h : g.val = k.val / 64 => hg (Fin.ext h)), mul_zero]
  · intro h
    exact absurd (Finset.mem_univ _) h

/-- The dequantized weight of channel `o` at feature `k`: the code minus the group's zero point, times the group's scale. -/
def weight (q : IVec ⟨2, ![14336, 4096]⟩ 32) (sc zr : FVec Ideal ⟨2, ![14336, 64]⟩ .f32) (o : Fin 14336) (k : Fin 4096) : EReal :=
  (FloatOps.sitofp (F := Ideal) .f32 (q (ix2 o k)) - zr (ix2 o (grp k))) * sc (ix2 o (grp k))

/-- The layer's output: at (token, channel) the sum over the features of activation times dequantized weight, plus the
    channel's bias. -/
def result (x : FVec Ideal ⟨2, ![256, 4096]⟩ .f32) (q : IVec ⟨2, ![14336, 4096]⟩ 32) (sc zr : FVec Ideal ⟨2, ![14336, 64]⟩ .f32)
    (b : FVec Ideal ⟨1, ![14336]⟩ .f32) : FVec Ideal ⟨2, ![256, 14336]⟩ .f32 := fun i =>
  (∑ k : Fin 4096, x (ix2 (i 0) k) * weight q sc zr (i 1) k) + b (ix1 (i 1))

end Cert.Dequant

end
-- ==== Proof.KernelBody.lean ====
/-
  What the kernel's body stores, read at one index of its [256 tokens, 256 channels] output block.

  The body multiplies the [256, 64] blocks of per-group scales and zero points by a [64, 4096] matrix `e` to spread
  them over the 4096 features, forms (code - zero) * scale feature by feature, contracts the feature axis of the
  activations with the feature axis of that weight block, and adds the bias row. Each of the three matrix products
  accumulates into a zero block, so at the ideal values it is the plain sum of products over its one contracted axis;
  the format changes are the identity there.
-/
import proofs.«145249_j46265387712855_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-! ## The product that spreads group values over features: [256, 64] × [64, 4096], contracting the 64 groups -/

theorem spread_lhs0 (i : S256x4096.Idx) (q : dot_S256x64_S64x4096_S256x4096_1_0_0_1_n_n.contr.Idx) :
    (dot_S256x64_S64x4096_S256x4096_1_0_0_1_n_n.lhsIdx i q 0).val = (i 0).val := by
  unfold DotDims.lhsIdx
  rw [dif_neg (show ¬(0 : Fin S256x64.rank) ∈ dot_S256x64_S64x4096_S256x4096_1_0_0_1_n_n.lhsBatch by decide),
    dif_pos (show (0 : Fin S256x64.rank) ∈ dot_S256x64_S64x4096_S256x4096_1_0_0_1_n_n.lhsNonContracting by decide)]
  rfl

theorem spread_lhs1 (i : S256x4096.Idx) (q : dot_S256x64_S64x4096_S256x4096_1_0_0_1_n_n.contr.Idx) :
    (dot_S256x64_S64x4096_S256x4096_1_0_0_1_n_n.lhsIdx i q 1).val = (q ⟨0, by decide⟩).val :=
  dot_S256x64_S64x4096_S256x4096_1_0_0_1_n_n.lhsIdx_val_of_single rfl i q

theorem spread_rhs0 (i : S256x4096.Idx) (q : dot_S256x64_S64x4096_S256x4096_1_0_0_1_n_n.contr.Idx) :
    (dot_S256x64_S64x4096_S256x4096_1_0_0_1_n_n.rhsIdx i q 0).val = (q ⟨0, by decide⟩).val :=
  dot_S256x64_S64x4096_S256x4096_1_0_0_1_n_n.rhsIdx_val_of_single rfl i q

theorem spread_rhs1 (i : S256x4096.Idx) (q : dot_S256x64_S64x4096_S256x4096_1_0_0_1_n_n.contr.Idx) :
    (dot_S256x64_S64x4096_S256x4096_1_0_0_1_n_n.rhsIdx i q 1).val = (i 1).val := by
  unfold DotDims.rhsIdx
  rw [dif_neg (show ¬(1 : Fin S64x4096.rank) ∈ dot_S256x64_S64x4096_S256x4096_1_0_0_1_n_n.rhsBatch by decide),
    dif_pos (show (1 : Fin S64x4096.rank) ∈ dot_S256x64_S64x4096_S256x4096_1_0_0_1_n_n.rhsNonContracting by decide)]
  rfl

/-- Entry (channel `o`, feature `k`) of the spreading product is the sum over the 64 groups of the channel's group
    value times `e` at (group, feature). -/
theorem spread_apply (l : FVec Ideal S256x64 .bf16) (r : FVec Ideal S64x4096 .bf16) (o : Fin 256) (k : Fin 4096) :
    matmul dot_S256x64_S64x4096_S256x4096_1_0_0_1_n_n none l r (constant (F := Ideal) S256x4096 .f32 0x00000000#32) (ix2 o k)
      = ∑ g : Fin 64, l (ix2 o g) * r (ix2 g k) := by
  simp only [matmul]
  rw [Ideal.matmul_constant_zero_apply, ← Equiv.sum_comp (contrEquiv1 dot_S256x64_S64x4096_S256x4096_1_0_0_1_n_n 64 rfl rfl).symm]
  refine Finset.sum_congr rfl fun g _ => ?_
  have hg := contrEquiv1_symm_val dot_S256x64_S64x4096_S256x4096_1_0_0_1_n_n 64 rfl rfl g
  have el : dot_S256x64_S64x4096_S256x4096_1_0_0_1_n_n.lhsIdx (ix2 o k) ((contrEquiv1 dot_S256x64_S64x4096_S256x4096_1_0_0_1_n_n 64 rfl rfl).symm g) = ix2 o g :=
    funext fun a => Fin.ext (by
      match a with
      | ⟨0, _⟩ => exact spread_lhs0 _ _
      | ⟨1, _⟩ => exact (spread_lhs1 _ _).trans hg)
  have er : dot_S256x64_S64x4096_S256x4096_1_0_0_1_n_n.rhsIdx (ix2 o k) ((contrEquiv1 dot_S256x64_S64x4096_S256x4096_1_0_0_1_n_n 64 rfl rfl).symm g) = ix2 g k :=
    funext fun a => Fin.ext (by
      match a with
      | ⟨0, _⟩ => exact (spread_rhs0 _ _).trans hg
      | ⟨1, _⟩ => exact spread_rhs1 _ _)
  rw [el, er]

/-! ## The main product: [256 tokens, 4096] × [256 channels, 4096], contracting the features of both -/

theorem main_lhs0 (i : S256x256.Idx) (q : dot_S256x4096_S256x4096_S256x256_1_1_0_0_n_n.contr.Idx) :
    (dot_S256x4096_S256x4096_S256x256_1_1_0_0_n_n.lhsIdx i q 0).val = (i 0).val := by
  unfold DotDims.lhsIdx
  rw [dif_neg (show ¬(0 : Fin S256x4096.rank) ∈ dot_S256x4096_S256x4096_S256x256_1_1_0_0_n_n.lhsBatch by decide),
    dif_pos (show (0 : Fin S256x4096.rank) ∈ dot_S256x4096_S256x4096_S256x256_1_1_0_0_n_n.lhsNonContracting by decide)]
  rfl

theorem main_lhs1 (i : S256x256.Idx) (q : dot_S256x4096_S256x4096_S256x256_1_1_0_0_n_n.contr.Idx) :
    (dot_S256x4096_S256x4096_S256x256_1_1_0_0_n_n.lhsIdx i q 1).val = (q ⟨0, by decide⟩).val :=
  dot_S256x4096_S256x4096_S256x256_1_1_0_0_n_n.lhsIdx_val_of_single rfl i q

theorem main_rhs0 (i : S256x256.Idx) (q : dot_S256x4096_S256x4096_S256x256_1_1_0_0_n_n.contr.Idx) :
    (dot_S256x4096_S256x4096_S256x256_1_1_0_0_n_n.rhsIdx i q 0).val = (i 1).val := by
  unfold DotDims.rhsIdx
  rw [dif_neg (show ¬(0 : Fin S256x4096.rank) ∈ dot_S256x4096_S256x4096_S256x256_1_1_0_0_n_n.rhsBatch by decide),
    dif_pos (show (0 : Fin S256x4096.rank) ∈ dot_S256x4096_S256x4096_S256x256_1_1_0_0_n_n.rhsNonContracting by decide)]
  rfl

theorem main_rhs1 (i : S256x256.Idx) (q : dot_S256x4096_S256x4096_S256x256_1_1_0_0_n_n.contr.Idx) :
    (dot_S256x4096_S256x4096_S256x256_1_1_0_0_n_n.rhsIdx i q 1).val = (q ⟨0, by decide⟩).val :=
  dot_S256x4096_S256x4096_S256x256_1_1_0_0_n_n.rhsIdx_val_of_single rfl i q

/-- Entry (token `p`, channel `o`) of the main product is the sum over the features of activation times weight. -/
theorem main_apply (l : FVec Ideal S256x4096 .bf16) (r : FVec Ideal S256x4096 .bf16) (p o : Fin 256) :
    matmul dot_S256x4096_S256x4096_S256x256_1_1_0_0_n_n none l r (constant (F := Ideal) S256x256 .f32 0x00000000#32) (ix2 p o)
      = ∑ k : Fin 4096, l (ix2 p k) * r (ix2 o k) := by
  simp only [matmul]
  rw [Ideal.matmul_constant_zero_apply, ← Equiv.sum_comp (contrEquiv1 dot_S256x4096_S256x4096_S256x256_1_1_0_0_n_n 4096 rfl rfl).symm]
  refine Finset.sum_congr rfl fun k _ => ?_
  have hk := contrEquiv1_symm_val dot_S256x4096_S256x4096_S256x256_1_1_0_0_n_n 4096 rfl rfl k
  have el : dot_S256x4096_S256x4096_S256x256_1_1_0_0_n_n.lhsIdx (ix2 p o) ((contrEquiv1 dot_S256x4096_S256x4096_S256x256_1_1_0_0_n_n 4096 rfl rfl).symm k) = ix2 p k :=
    funext fun a => Fin.ext (by
      match a with
      | ⟨0, _⟩ => exact main_lhs0 _ _
      | ⟨1, _⟩ => exact (main_lhs1 _ _).trans hk)
  have er : dot_S256x4096_S256x4096_S256x256_1_1_0_0_n_n.rhsIdx (ix2 p o) ((contrEquiv1 dot_S256x4096_S256x4096_S256x256_1_1_0_0_n_n 4096 rfl rfl).symm k) = ix2 o k :=
    funext fun a => Fin.ext (by
      match a with
      | ⟨0, _⟩ => exact main_rhs0 _ _
      | ⟨1, _⟩ => exact (main_rhs1 _ _).trans hk)
  rw [el, er]

/-! ## The stored value at an index -/

/-- The bias row laid along every token row: entry (token `p`, channel `o`) is the row's entry `o`. -/
theorem biasRow_apply (v16 : FVec Ideal S1x256 .f32) (p o : Fin 256) :
    broadcastTo S256x256 (shapeCast S1x256 v16 shapeCasts_S1x256_S1x256) broadcasts_S1x256_S256x256 (ix2 p o)
      = v16 (ix2 (0 : Fin 1) o) := by
  rw [shapeCast_self]
  refine broadcastTo_apply v16 broadcasts_S1x256_S256x256 (ix2 p o) (ix2 (0 : Fin 1) o) ?_
  intro a
  match a with
  | ⟨0, _⟩ => show (0 : Nat) = if (1 : Nat) = 1 then 0 else p.val; rw [if_pos rfl]
  | ⟨1, _⟩ => show o.val = if (256 : Nat) = 1 then 0 else o.val; rw [if_neg (by decide)]

/-- Entry (token `p`, channel `o`) of the block the body stores, from the blocks it loads: activations `v0`, codes `v2`,
    scales `v4`, zero points `v6`, the spreading matrix `v8`, the bias row `v16`. -/
theorem payload_apply (v0 : Vec Ideal S256x4096 .f32) (v2 : Vec Ideal S256x4096 .i32) (v4 v6 : Vec Ideal S256x64 .f32)
    (v8 : Vec Ideal S64x4096 .bf16) (v16 : Vec Ideal S1x256 .f32) (p o : Fin 256) :
    k0_pay1 v0 v2 v4 v6 v8 v16 (ix2 p o)
      = (∑ k : Fin 4096, v0 (ix2 p k) * ((FloatOps.sitofp (F := Ideal) .f32 (v2 (ix2 o k)) - ∑ g : Fin 64, v6 (ix2 o g) * v8 (ix2 g k))
            * ∑ g : Fin 64, v4 (ix2 o g) * v8 (ix2 g k)))
        + v16 (ix2 (0 : Fin 1) o) := by
  unfold k0_pay1
  rw [addf_apply, biasRow_apply, main_apply]
  congr 1
  refine Finset.sum_congr rfl fun k _ => ?_
  rw [truncf_apply, truncf_apply, mulf_apply, subf_apply, sitofp_apply, spread_apply, spread_apply]
  simp only [truncf_apply, shapeCast_self]

end Cert.KernelIdeal.Body

end
-- ==== Proof.HostPrefix.lean ====
/-
  The two arrays the program computes on the host before it launches the kernel, read at an index.

  The bias vector [14336] is recast as one row [1, 14336]: entry (0, o) is the bias of channel o.

  The spreading matrix [64 groups, 4096 features] is the comparison "g = k div 64" converted to a float, 1 where it holds
  and 0 elsewhere. The program spells the floor division of the feature number k by 64 on 32-bit words in the usual way:
  the truncated quotient, less one where dividend and divisor have different signs and the remainder is not zero. For
  0 ≤ k < 4096 both signs are nonnegative, so no correction applies and the word is the number k div 64; this is a
  statement about 4096 words and is decided by evaluating it at each.
-/
import proofs.«145249_j46265387712855_1_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import Idealize.ShloMosaic.Lib.Decide

noncomputable section

namespace Cert.KernelIdeal.HostPrefix

open Cert.KernelIdeal Cert.KernelIdeal.Gen Idealize.ShloMosaic Idealize.ShloMosaic.TcCoe Idealize.SL.Sem
open Idealize.ShloMosaic.StableHlo Idealize.ShloMosaic.ValueIdx

/-! ## The group of each feature, on 32-bit words -/

/-- The floor division of the feature numbers 0 … 4095 by 64 as the program writes it: truncated quotient, remainder,
    the two signs compared, the correction selected. -/
def groupOfFeature : IVec S4096 32 :=
  select (andi (cmpi .ne (signi (iotaInDim S4096 32 0)) (broadcastInDim S4096 ![] bcast_S_S4096 (signi (constantI S_ 32 64#32))))
               (cmpi .ne (Host.remsi (iotaInDim S4096 32 0) (broadcastInDim S4096 ![] bcast_S_S4096 (constantI S_ 32 64#32)))
                 (broadcastInDim S4096 ![] bcast_S_S4096 (constantI S_ 32 0#32))))
         (subi (Host.divsi (iotaInDim S4096 32 0) (broadcastInDim S4096 ![] bcast_S_S4096 (constantI S_ 32 64#32)))
           (broadcastInDim S4096 ![] bcast_S_S4096 (constantI S_ 32 1#32)))
         (Host.divsi (iotaInDim S4096 32 0) (broadcastInDim S4096 ![] bcast_S_S4096 (constantI S_ 32 64#32)))

/-- At feature `k` it is the word of the number `k / 64`: decided at each of the 4096 features. -/
theorem groupOfFeature_apply : ∀ k : Fin 4096, groupOfFeature (ix1 k) = BitVec.ofNat 32 (k.val / 64) := by decide +kernel

/-- Two numbers below 2³² are equal as 32-bit words exactly when they are equal. -/
theorem cmpi_eq_ofNat (a b : Nat) (ha : a < 2 ^ 32) (hb : b < 2 ^ 32) :
    IntOp.cmpi .eq (BitVec.ofNat 32 a) (BitVec.ofNat 32 b) = if a = b then 1#1 else 0#1 := by
  unfold IntOp.cmpi
  show BitVec.ofBool (BitVec.ofNat 32 a == BitVec.ofNat 32 b) = _
  by_cases h : a = b
  · subst h; rw [beq_self_eq_true, if_pos rfl]; rfl
  · have hne : BitVec.ofNat 32 a ≠ BitVec.ofNat 32 b := by
      intro he
      apply h
      have ht := congrArg BitVec.toNat he
      rw [BitVec.toNat_ofNat, BitVec.toNat_ofNat, Nat.mod_eq_of_lt ha, Nat.mod_eq_of_lt hb] at ht
      exact ht
    rw [beq_eq_false_iff_ne.mpr hne, if_neg h]; rfl

/-! ## The spreading matrix -/

/-- The matrix as the program writes it: the group numbers down the rows compared with each feature's group along the
    columns, the comparison's bit converted to a float. -/
def spreadMatrix : FVec Ideal S64x4096 .bf16 :=
  uitofp .bf16 (cmpi .eq
    (broadcastInDim S64x4096 ![0, 1] bcast_S64x1_S64x4096_0_1 (broadcastInDim S64x1 ![0] bcast_S64_S64x1_0 (iotaInDim S64 32 0)))
    (broadcastInDim S64x4096 ![0, 1] bcast_S1x4096_S64x4096_0_1 (broadcastInDim S1x4096 ![1] bcast_S4096_S1x4096_1 groupOfFeature)))

/-- Entry (group `g`, feature `k`) is 1 where `g` is the group of `k`, else 0. -/
theorem spreadMatrix_apply (g : Fin 64) (k : Fin 4096) :
    spreadMatrix (ix2 g k) = if g.val = k.val / 64 then (1 : EReal) else 0 := by
  have hg := g.isLt
  have hk := k.isLt
  show FloatOps.uitofp (F := Ideal) .bf16 (IntOp.cmpi .eq
      (broadcastInDim S64x4096 ![0, 1] bcast_S64x1_S64x4096_0_1 (broadcastInDim S64x1 ![0] bcast_S64_S64x1_0 (iotaInDim S64 32 0)) (ix2 g k))
      (broadcastInDim S64x4096 ![0, 1] bcast_S1x4096_S64x4096_0_1 (broadcastInDim S1x4096 ![1] bcast_S4096_S1x4096_1 groupOfFeature) (ix2 g k))) = _
  rw [broadcastInDim_apply _ bcast_S64x1_S64x4096_0_1 _ (ix2 g k) (ix2 g (0 : Fin 1)) (fun a => match a with
        | ⟨0, _⟩ => by show g.val = if (64 : Nat) = 1 then 0 else g.val; rw [if_neg (by decide)]
        | ⟨1, _⟩ => by show (0 : Nat) = if (1 : Nat) = 1 then 0 else k.val; rw [if_pos rfl]),
    broadcastInDim_apply _ bcast_S64_S64x1_0 _ (ix2 g (0 : Fin 1)) (ix1 g) (fun a => match a with
        | ⟨0, _⟩ => by show g.val = if (64 : Nat) = 1 then 0 else g.val; rw [if_neg (by decide)]),
    broadcastInDim_apply _ bcast_S1x4096_S64x4096_0_1 _ (ix2 g k) (ix2 (0 : Fin 1) k) (fun a => match a with
        | ⟨0, _⟩ => by show (0 : Nat) = if (1 : Nat) = 1 then 0 else g.val; rw [if_pos rfl]
        | ⟨1, _⟩ => by show k.val = if (4096 : Nat) = 1 then 0 else k.val; rw [if_neg (by decide)]),
    broadcastInDim_apply _ bcast_S4096_S1x4096_1 _ (ix2 (0 : Fin 1) k) (ix1 k) (fun a => match a with
        | ⟨0, _⟩ => by show k.val = if (4096 : Nat) = 1 then 0 else k.val; rw [if_neg (by decide)]),
    groupOfFeature_apply]
  show (((IntOp.cmpi .eq (BitVec.ofNat 32 g.val) (BitVec.ofNat 32 (k.val / 64))).toNat : ℝ) : EReal) = _
  rw [cmpi_eq_ofNat _ _ (by omega) (by omega)]
  by_cases h : g.val = k.val / 64
  · rw [if_pos h, if_pos h]; simp
  · rw [if_neg h, if_neg h]; simp

/-! ## The arrays as the kernel's launch finds them -/

variable (m : (ℓ : Loc nD τ sig) → Buf (Elt Ideal) ℓ)

/-- The sixth operand of the launch is the spreading matrix. -/
theorem spread_eq (c : Dev nD) : (V m c main_v9 : S64x4096.Idx → EReal) = spreadMatrix := by
  dsimp only [Gen.V]
  simp only [Gen.hostOps0, Gen.hostOps0_1, Gen.hostOps0_2, List.flatten_cons, List.flatten_nil, List.append_nil, List.cons_append,
    List.nil_append]
  after_results
  rfl

/-- The fifth operand of the launch is the bias recast as one row. -/
theorem biasRow_eq (c : Dev nD) :
    (V m c main_v0 : S1x14336.Idx → EReal) = shapeCast S1x14336 (m ((c : Thread nD τ).loc main_arg4) : S14336.Idx → EReal) shapeCasts_S14336_S1x14336 := by
  dsimp only [Gen.V]
  simp only [Gen.hostOps0, Gen.hostOps0_1, Gen.hostOps0_2, List.flatten_cons, List.flatten_nil, List.append_nil, List.cons_append,
    List.nil_append]
  after_results
  rfl

/-- Entry (0, channel `o`) of that row is the bias of channel `o`. -/
theorem biasRow_apply (c : Dev nD) (o : Fin 14336) :
    (V m c main_v0 : S1x14336.Idx → EReal) (ix2 (0 : Fin 1) o) = (m ((c : Thread nD τ).loc main_arg4) : S14336.Idx → EReal) (ix1 o) := by
  rw [biasRow_eq]
  exact shapeCast_a_1a_apply _ _ _ _

end Cert.KernelIdeal.HostPrefix

end
-- ==== Proof.KernelValue.lean ====
/-
  From the kernel's 56 launches to its whole output array.

  Launch number b (one per block of 256 output channels) is handed the whole activation matrix, rows 256·b … 256·b + 255 of
  the codes, of the scales and of the zero points, entries 256·b … 256·b + 255 of the bias row, and the whole spreading
  matrix; it writes columns 256·b … 256·b + 255 of the output. With the spreading matrix being the indicator of
  "g is the group of k", each spreading product selects the group's scale or zero point, so the block the launch stores
  is the corresponding block of the specification function. The 56 column blocks tile the output, so after the run
  the output array is the specification function of the argument arrays.
-/
import proofs.«145249_j46265387712855_1_alg».proof.Proof.Gen.KernelIdeal.Value
import proofs.«145249_j46265387712855_1_alg».proof.Proof.KernelBody
import proofs.«145249_j46265387712855_1_alg».proof.Proof.HostPrefix
import proofs.«145249_j46265387712855_1_alg».proof.Proof.DequantSpec
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)

/-! ## One block's value from the blocks it is handed -/

/-- If the blocks a launch loads are block `b` of the argument arrays (and the whole activation and spreading matrices),
    the entry it stores at (token `p`, local channel `o`) is the specification function at (p, 256·b + o): the two
    spreading sums select the group's zero point and scale (`Cert.Dequant.sum_indicator`). -/
theorem block_value (x0 : Vec Ideal S256x4096 .f32) (x1 : Vec Ideal S256x4096 .i32) (x2 x3 : Vec Ideal S256x64 .f32)
    (x4 : Vec Ideal S1x256 .f32) (x5 : Vec Ideal S64x4096 .bf16)
    (A0 : FVec Ideal S256x4096 .f32) (A1 : IVec S14336x4096 32) (A2 A3 : FVec Ideal S14336x64 .f32) (A4 : FVec Ideal S14336 .f32)
    (b : Nat) (hb : b < 56)
    (h0 : ∀ (p : Fin 256) (k : Fin 4096), x0 (ix2 p k) = A0 (ix2 p k))
    (h1 : ∀ (o : Fin 256) (k : Fin 4096), x1 (ix2 o k) = A1 (ix2 (⟨b * 256 + o.val, by have := o.isLt; omega⟩ : Fin 14336) k))
    (h2 : ∀ (o : Fin 256) (g : Fin 64), x2 (ix2 o g) = A2 (ix2 (⟨b * 256 + o.val, by have := o.isLt; omega⟩ : Fin 14336) g))
    (h3 : ∀ (o : Fin 256) (g : Fin 64), x3 (ix2 o g) = A3 (ix2 (⟨b * 256 + o.val, by have := o.isLt; omega⟩ : Fin 14336) g))
    (h4 : ∀ o : Fin 256, x4 (ix2 (0 : Fin 1) o) = A4 (ix1 (⟨b * 256 + o.val, by have := o.isLt; omega⟩ : Fin 14336)))
    (h5 : ∀ (g : Fin 64) (k : Fin 4096), x5 (ix2 g k) = if g.val = k.val / 64 then (1 : EReal) else 0)
    (p o : Fin 256) :
    k0_pay1 x0 x1 x2 x3 x5 x4 (ix2 p o)
      = Cert.Dequant.result A0 A1 A2 A3 A4 (ix2 p (⟨b * 256 + o.val, by have := o.isLt; omega⟩ : Fin 14336)) := by
  rw [Body.payload_apply]
  unfold Cert.Dequant.result Cert.Dequant.weight
  show (∑ k : Fin 4096, x0 (ix2 p k) * ((FloatOps.sitofp (F := Ideal) .f32 (x1 (ix2 o k)) - ∑ g : Fin 64, x3 (ix2 o g) * x5 (ix2 g k))
          * ∑ g : Fin 64, x2 (ix2 o g) * x5 (ix2 g k))) + x4 (ix2 (0 : Fin 1) o)
      = (∑ k : Fin 4096, A0 (ix2 p k) * ((FloatOps.sitofp (F := Ideal) .f32 (A1 (ix2 (⟨b * 256 + o.val, _⟩ : Fin 14336) k))
            - A3 (ix2 (⟨b * 256 + o.val, _⟩ : Fin 14336) (Cert.Dequant.grp k))) * A2 (ix2 (⟨b * 256 + o.val, _⟩ : Fin 14336) (Cert.Dequant.grp k))))
        + A4 (ix1 (⟨b * 256 + o.val, _⟩ : Fin 14336))
  rw [h4]
  congr 1
  refine Finset.sum_congr rfl fun k _ => ?_
  rw [h0, h1, Cert.Dequant.sum_indicator (fun g => x3 (ix2 o g)) (fun g => x5 (ix2 g k)) k (fun g => h5 g k),
    Cert.Dequant.sum_indicator (fun g => x2 (ix2 o g)) (fun g => x5 (ix2 g k)) k (fun g => h5 g k), h2, h3]

/-! ## The blocks a launch is handed, read off the argument arrays -/

variable (m : (ℓ : Loc nD τ sig) → Buf (Elt Ideal) ℓ) (ρ : Dev nD → PrngReg)

theorem hz : (![0, 0] : Fin 2 → Nat) = fun _ => 0 := funext fun a => by fin_cases a <;> rfl

/-- The printed index maps over the 56 launches: the activation and spreading matrices are taken whole; codes, scales
    and zero points by row block `t`; the bias row and the output by column block `t`. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = t.val
    ∧ win0_5.index t (0 : Fin 2) = 0 ∧ win0_5.index t (1 : Fin 2) = 0
    ∧ win0_6.index t (0 : Fin 2) = 0 ∧ win0_6.index t (1 : Fin 2) = t.val :=
  (by decide +kernel : ∀ t : Fin grid0.N, _)

theorem point_lt (t : Fin cfg0.N) : t.val < 56 := lt_of_lt_of_eq t.isLt N_0

/-- The activation block of every launch is the whole activation matrix. -/
theorem iblk0_apply (c : Dev nD) (t : Fin cfg0.N) (p : Fin 256) (k : Fin 4096) :
    (iblk m c 0 t : Vec Ideal S256x4096 .f32) (ix2 p k) = (m ((c : Thread nD τ).loc main_arg0) : S256x4096.Idx → EReal) (ix2 p k) := by
  obtain ⟨e00, e01, -⟩ := idx_facts t
  unfold iblk
  rw [View.read_apply]
  show V m c main_arg0 _ = _
  rw [V_main_arg0]
  congr 1
  funext a
  apply Fin.ext
  match a with
  | ⟨0, _⟩ => show win0_0.index t (0 : Fin 2) * 256 + 1 * p.val = p.val; rw [e00]; omega
  | ⟨1, _⟩ => show win0_0.index t (1 : Fin 2) * 4096 + 1 * k.val = k.val; rw [e01]; omega

/-- The code block of launch `t` is rows 256·t … of the codes. -/
theorem iblk1_apply (c : Dev nD) (t : Fin cfg0.N) (o : Fin 256) (k : Fin 4096) :
    (iblk m c 1 t : Vec Ideal S256x4096 .i32) (ix2 o k)
      = (m ((c : Thread nD τ).loc main_arg1) : S14336x4096.Idx → BitVec 32) (ix2 (⟨t.val * 256 + o.val, by have := point_lt t; have := o.isLt; omega⟩ : Fin 14336) k) := by
  obtain ⟨-, -, e10, e11, -⟩ := idx_facts t
  unfold iblk
  rw [View.read_apply]
  show V m c main_arg1 _ = _
  rw [V_main_arg1]
  congr 1
  funext a
  apply Fin.ext
  match a with
  | ⟨0, _⟩ => show win0_1.index t (0 : Fin 2) * 256 + 1 * o.val = t.val * 256 + o.val; rw [e10]; omega
  | ⟨1, _⟩ => show win0_1.index t (1 : Fin 2) * 4096 + 1 * k.val = k.val; rw [e11]; omega

/-- The scale block of launch `t` is rows 256·t … of the scales. -/
theorem iblk2_apply (c : Dev nD) (t : Fin cfg0.N) (o : Fin 256) (g : Fin 64) :
    (iblk m c 2 t : Vec Ideal S256x64 .f32) (ix2 o g)
      = (m ((c : Thread nD τ).loc main_arg2) : S14336x64.Idx → EReal) (ix2 (⟨t.val * 256 + o.val, by have := point_lt t; have := o.isLt; omega⟩ : Fin 14336) g) := by
  obtain ⟨-, -, -, -, e20, e21, -⟩ := idx_facts t
  unfold iblk
  rw [View.read_apply]
  show V m c main_arg2 _ = _
  rw [V_main_arg2]
  congr 1
  funext a
  apply Fin.ext
  match a with
  | ⟨0, _⟩ => show win0_2.index t (0 : Fin 2) * 256 + 1 * o.val = t.val * 256 + o.val; rw [e20]; omega
  | ⟨1, _⟩ => show win0_2.index t (1 : Fin 2) * 64 + 1 * g.val = g.val; rw [e21]; omega

/-- The zero-point block of launch `t` is rows 256·t … of the zero points. -/
theorem iblk3_apply (c : Dev nD) (t : Fin cfg0.N) (o : Fin 256) (g : Fin 64) :
    (iblk m c 3 t : Vec Ideal S256x64 .f32) (ix2 o g)
      = (m ((c : Thread nD τ).loc main_arg3) : S14336x64.Idx → EReal) (ix2 (⟨t.val * 256 + o.val, by have := point_lt t; have := o.isLt; omega⟩ : Fin 14336) g) := by
  obtain ⟨-, -, -, -, -, -, e30, e31, -⟩ := idx_facts t
  unfold iblk
  rw [View.read_apply]
  show V m c main_arg3 _ = _
  rw [V_main_arg3]
  congr 1
  funext a
  apply Fin.ext
  match a with
  | ⟨0, _⟩ => show win0_3.index t (0 : Fin 2) * 256 + 1 * o.val = t.val * 256 + o.val; rw [e30]; omega
  | ⟨1, _⟩ => show win0_3.index t (1 : Fin 2) * 64 + 1 * g.val = g.val; rw [e31]; omega

/-- The bias block of launch `t` is entries 256·t … of the bias. -/
theorem iblk4_apply (c : Dev nD) (t : Fin cfg0.N) (o : Fin 256) :
    (iblk m c 4 t : Vec Ideal S1x256 .f32) (ix2 (0 : Fin 1) o)
      = (m ((c : Thread nD τ).loc main_arg4) : S14336.Idx → EReal) (ix1 (⟨t.val * 256 + o.val, by have := point_lt t; have := o.isLt; omega⟩ : Fin 14336)) := by
  obtain ⟨-, -, -, -, -, -, -, -, e40, e41, -⟩ := idx_facts t
  unfold iblk
  rw [View.read_apply]
  show V m c main_v0 _ = _
  refine Eq.trans ?_ (HostPrefix.biasRow_apply m c _)
  congr 1
  funext a
  apply Fin.ext
  match a with
  | ⟨0, _⟩ => show win0_4.index t (0 : Fin 2) * 1 + 1 * 0 = 0; rw [e40]
  | ⟨1, _⟩ => show win0_4.index t (1 : Fin 2) * 256 + 1 * o.val = t.val * 256 + o.val; rw [e41]; omega

/-- The sixth block of every launch is the whole spreading matrix: the indicator of "g is the group of k". -/
theorem iblk5_apply (c : Dev nD) (t : Fin cfg0.N) (g : Fin 64) (k : Fin 4096) :
    (iblk m c 5 t : Vec Ideal S64x4096 .bf16) (ix2 g k) = if g.val = k.val / 64 then (1 : EReal) else 0 := by
  obtain ⟨-, -, -, -, -, -, -, -, -, -, e50, e51, -⟩ := idx_facts t
  unfold iblk
  rw [View.read_apply]
  show V m c main_v9 _ = _
  rw [HostPrefix.spread_eq]
  refine Eq.trans ?_ (HostPrefix.spreadMatrix_apply g k)
  congr 1
  funext a
  apply Fin.ext
  match a with
  | ⟨0, _⟩ => show win0_5.index t (0 : Fin 2) * 64 + 1 * g.val = g.val; rw [e50]; omega
  | ⟨1, _⟩ => show win0_5.index t (1 : Fin 2) * 4096 + 1 * k.val = k.val; rw [e51]; omega

/-! ## What each launch writes back, the cover, the whole array -/

/-- The specification function of the argument arrays as launched. -/
abbrev spec (c : Dev nD) : S256x14336.Idx → EReal :=
  Cert.Dequant.result (m ((c : Thread nD τ).loc main_arg0)) (m ((c : Thread nD τ).loc main_arg1)) (m ((c : Thread nD τ).loc main_arg2))
    (m ((c : Thread nD τ).loc main_arg3)) (m ((c : Thread nD τ).loc main_arg4))

/-- Launch `t` writes back column block `t` of the specification function. -/
theorem flushed_eq (c : Dev nD) (t : Fin cfg0.N) :
    (dats m 0 c).flushed 6 t = ((cfg0.win 6).blk t).view.read (Elt Ideal) (spec m c) := by
  rw [Value.flushed6]
  unfold out0_6
  rw [View.canon_unit_zero hz]
  simp only [View.ld_unit_zero (S := S256x4096) hz, View.ld_unit_zero (S := S256x64) hz, View.ld_unit_zero (S := S64x4096) hz,
    View.ld_unit_zero (S := S1x256) hz]
  obtain ⟨-, -, -, -, -, -, -, -, -, -, -, -, e60, e61⟩ := idx_facts t
  have ht := point_lt t
  funext j
  show k0_pay1 (iblk m c 0 t) (iblk m c 1 t) (iblk m c 2 t) (iblk m c 3 t) (iblk m c 5 t) (iblk m c 4 t) j
    = spec m c (((cfg0.win 6).blk t).view.emb j)
  have hj0 : (j 0).val < 256 := (j 0).isLt
  have hj1 : (j 1).val < 256 := (j 1).isLt
  have hemb : ((cfg0.win 6).blk t).view.emb j
      = ix2 (⟨(j 0).val, hj0⟩ : Fin 256) (⟨t.val * 256 + (⟨(j 1).val, hj1⟩ : Fin 256).val, by omega⟩ : Fin 14336) := by
    funext a
    apply Fin.ext
    match a with
    | ⟨0, _⟩ => show win0_6.index t (0 : Fin 2) * 256 + 1 * (j 0).val = (j 0).val; rw [e60]; omega
    | ⟨1, _⟩ => show win0_6.index t (1 : Fin 2) * 256 + 1 * (j 1).val = t.val * 256 + (j 1).val; rw [e61]; omega
  have hjj : j = ix2 (⟨(j 0).val, hj0⟩ : Fin 256) (⟨(j 1).val, hj1⟩ : Fin 256) :=
    funext fun a => by
      match a with
      | ⟨0, _⟩ => rfl
      | ⟨1, _⟩ => rfl
  rw [hemb]
  refine (congrArg (k0_pay1 (iblk m c 0 t) (iblk m c 1 t) (iblk m c 2 t) (iblk m c 3 t) (iblk m c 5 t) (iblk m c 4 t)) hjj).trans ?_
  exact block_value (iblk m c 0 t) (iblk m c 1 t) (iblk m c 2 t) (iblk m c 3 t) (iblk m c 4 t) (iblk m c 5 t)
    (m ((c : Thread nD τ).loc main_arg0)) (m ((c : Thread nD τ).loc main_arg1)) (m ((c : Thread nD τ).loc main_arg2))
    (m ((c : Thread nD τ).loc main_arg3)) (m ((c : Thread nD τ).loc main_arg4)) t.val ht
    (iblk0_apply m c t) (iblk1_apply m c t) (iblk2_apply m c t) (iblk3_apply m c t) (iblk4_apply m c t) (iblk5_apply m c t)
    (⟨(j 0).val, hj0⟩ : Fin 256) (⟨(j 1).val, hj1⟩ : Fin 256)

/-- An index of the output is in launch `t`'s block iff each coordinate is in the block's range on its axis. -/
theorem mem_blk (t : Fin cfg0.N) (i : S256x14336.Idx) :
    i ∈ ((cfg0.win 6).blk t).view.set ↔ ∀ a : Fin 2, win0_6.index t a * S256x256.size a ≤ (i a).val ∧ (i a).val < win0_6.index t a * S256x256.size a + S256x256.size a := by
  show i ∈ ((View.whole main_v10).slice (win0_6.rect t)).set ↔ _
  rw [View.set_slice_whole, Rect.mem_set_unit]
  exact Iff.rfl

/-- Every output index lies in the block of the launch numbered by its channel divided by 256. -/
theorem cover (i : S256x14336.Idx) : ∃ t : Fin cfg0.N, (cfg0.win 6).flush t = true ∧ i ∈ ((cfg0.win 6).blk t).view.set := by
  have hi0 : (i 0).val < 256 := (i 0).isLt
  have hi1 : (i 1).val < 14336 := (i 1).isLt
  have hN : cfg0.N = 56 := N_0
  let t : Fin cfg0.N := ⟨(i 1).val / 256, by rw [hN]; omega⟩
  obtain ⟨-, -, -, -, -, -, -, -, -, -, -, -, e60, e61⟩ := idx_facts t
  have htv : t.val = (i 1).val / 256 := rfl
  refine ⟨t, flush0_6 t, ?_⟩
  rw [mem_blk]
  intro a
  match a with
  | ⟨0, _⟩ => show win0_6.index t (0 : Fin 2) * 256 ≤ (i 0).val ∧ (i 0).val < win0_6.index t (0 : Fin 2) * 256 + 256; rw [e60]; omega
  | ⟨1, _⟩ => show win0_6.index t (1 : Fin 2) * 256 ≤ (i 1).val ∧ (i 1).val < win0_6.index t (1 : Fin 2) * 256 + 256; rw [e61, htv]; omega

/-- After the run the output array is the specification function of the argument arrays. -/
theorem final (c : Dev nD) : (dats m 0 c).arrAt 6 cfg0.N = spec m c :=
  (dats m 0 c).arrAt_eq_of_cover 6 (spec m c) (fun t _ => flushed_eq m c t) cover

/-- The kernel's run, read: the result array at the specification function, the arguments unchanged. -/
theorem run : θ_run defs (onTc (τ := τ) (main (F := Ideal))) ⟨m, fun _ => 0, ρ⟩ fun r => ∀ c : Dev nD,
      r.2.mem ((c : Thread nD τ).loc main_v10) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Blocks

end
-- ==== Proof.RefValue.lean ====
/-
  The reference program computes the specification function.

  Read one operation at a time, the reference converts the integer codes to floats, regroups each channel's 4096
  features as 64 groups of 64 (feature k of channel o goes to position (o, k / 64, k % 64)), subtracts the group's zero
  point, multiplies by the group's scale, flattens the groups back to 4096 features, contracts the feature axis of the
  activations with that of the weights, and adds the channel's bias to every row. Flattening after regrouping is the
  identity on positions, because ((o * 64 + k / 64) * 64 + k % 64) = o * 4096 + k, and the group read at feature k
  is k / 64 because k < 4096. So each element of the contraction's right operand is the dequantized weight, and the
  result is the sum over the features of activation times weight, plus the bias.
-/
import proofs.«145249_j46265387712855_1_alg».proof.Proof.Gen.ReferenceIdeal.Read
import proofs.«145249_j46265387712855_1_alg».proof.Proof.DequantSpec

noncomputable section

open Idealize.ShloMosaic Idealize.ShloMosaic.ValueIdx Cert.ReferenceIdeal Cert.ReferenceIdeal.Read

namespace Cert.ReferenceIdeal.RefValue

/-- Regrouping (o, k) as (o, k / 64, k % 64) and flattening back gives (o, k): the code is read at (o, k). -/
theorem code_idx (t : Fin 256) (o : Fin 14336) (k : Fin 4096) :
    idx_main_v1 (idx_main_v8 (ridx_main_v9 (ix2 t o) k)) = ix2 o k :=
  funext fun a => Fin.ext (by
    have ho := o.isLt
    have hk := k.isLt
    match a with
    | ⟨0, _⟩ =>
      show (((o.val * 4096 + k.val) / 4096 * 64 + (o.val * 4096 + k.val) / 64 % 64) * 64 + (o.val * 4096 + k.val) % 64) / 4096 = o.val
      omega
    | ⟨1, _⟩ =>
      show (((o.val * 4096 + k.val) / 4096 * 64 + (o.val * 4096 + k.val) / 64 % 64) * 64 + (o.val * 4096 + k.val) % 64) % 4096 = k.val
      omega)

/-- The zero point read at feature k of channel o is the one of k's group: ((o * 4096 + k) / 64) % 64 = k / 64. -/
theorem zero_idx (t : Fin 256) (o : Fin 14336) (k : Fin 4096) :
    idx_main_v2 (idx_main_v3 (idx_main_v8 (ridx_main_v9 (ix2 t o) k))) = ix2 o (Cert.Dequant.grp k) :=
  funext fun a => Fin.ext (by
    have ho := o.isLt
    have hk := k.isLt
    match a with
    | ⟨0, _⟩ =>
      show (o.val * 4096 + k.val) / 4096 = o.val
      omega
    | ⟨1, _⟩ =>
      show (o.val * 4096 + k.val) / 64 % 64 = k.val / 64
      omega)

/-- The scale read at feature k of channel o is the one of k's group. -/
theorem scale_idx (t : Fin 256) (o : Fin 14336) (k : Fin 4096) :
    idx_main_v5 (idx_main_v6 (idx_main_v8 (ridx_main_v9 (ix2 t o) k))) = ix2 o (Cert.Dequant.grp k) :=
  funext fun a => Fin.ext (by
    have ho := o.isLt
    have hk := k.isLt
    match a with
    | ⟨0, _⟩ =>
      show (o.val * 4096 + k.val) / 4096 = o.val
      omega
    | ⟨1, _⟩ =>
      show (o.val * 4096 + k.val) / 64 % 64 = k.val / 64
      omega)

/-- The contraction reads the activations at (token, feature). -/
theorem act_idx (t : Fin 256) (o : Fin 14336) (k : Fin 4096) :
    lidx_main_v9 (ix2 t o) k = ix2 t k :=
  funext fun a => Fin.ext (by
    match a with
    | ⟨0, _⟩ => rfl
    | ⟨1, _⟩ => rfl)

/-- The bias added at (token, channel) is the channel's. -/
theorem bias_idx (t : Fin 256) (o : Fin 14336) :
    idx_main_v10 (idx_main_v11 (ix2 t o)) = ix1 o :=
  funext fun a => Fin.ext (by
    match a with
    | ⟨0, _⟩ => rfl)

/-- The contraction's right operand at (channel o, feature k) is the dequantized weight. -/
theorem weight_at (x1 : (⟨S14336x4096, .i32⟩ : BufTy).Contents (Elt Ideal)) (x2 x3 : (⟨S14336x64, .f32⟩ : BufTy).Contents (Elt Ideal))
    (t : Fin 256) (o : Fin 14336) (k : Fin 4096) :
    val_main_v8 (F := Ideal) x1 x2 x3 (ridx_main_v9 (ix2 t o) k) = Cert.Dequant.weight x1 x2 x3 o k := by
  rw [val_main_v8_apply, val_main_v7_apply, val_main_v4_apply, val_main_v1_apply, val_main_v0_apply, val_main_v3_apply,
    val_main_v2_apply, val_main_v6_apply, val_main_v5_apply, code_idx, zero_idx, scale_idx]
  rfl

/-- The reference's result is the specification function. -/
theorem ref_eq (x0 : (⟨S256x4096, .f32⟩ : BufTy).Contents (Elt Ideal)) (x1 : (⟨S14336x4096, .i32⟩ : BufTy).Contents (Elt Ideal))
    (x2 x3 : (⟨S14336x64, .f32⟩ : BufTy).Contents (Elt Ideal)) (x4 : (⟨S14336, .f32⟩ : BufTy).Contents (Elt Ideal)) :
    Cert.ReferenceIdeal.Read.val_main_v12 (F := Ideal) x0 x1 x2 x3 x4 = Cert.Dequant.result x0 x1 x2 x3 x4 := by
  funext i
  obtain ⟨t, o, rfl⟩ : ∃ (t : Fin 256) (o : Fin 14336), i = ix2 t o := ⟨i 0, i 1, eq_ix2 i⟩
  rw [val_main_v12_apply, val_main_v9_apply, val_main_v11_apply, val_main_v10_apply, bias_idx]
  show (∑ k : Fin 4096, x0 (lidx_main_v9 (ix2 t o) k) * val_main_v8 (F := Ideal) x1 x2 x3 (ridx_main_v9 (ix2 t o) k)) + x4 (ix1 o)
    = (∑ k : Fin 4096, x0 (ix2 t k) * Cert.Dequant.weight x1 x2 x3 o k) + x4 (ix1 o)
  refine congrArg (· + x4 (ix1 o)) (Finset.sum_congr rfl fun k _ => ?_)
  rw [act_idx, weight_at]

end Cert.ReferenceIdeal.RefValue

end
-- ==== Proof.lean ====
/-
  The certificate of the grouped-dequantization matrix product: a kernel that multiplies activations x [256, 4096] by a
  weight matrix stored as integer codes with per-group scales and zero points (64 groups of 64 features per output
  channel), against the plain reference that dequantizes the whole weight matrix and contracts.

  Both compute, at (token t, channel o), the sum over the 4096 features k of
  x[t,k] · ((code[o,k] − zero[o, k div 64]) · scale[o, k div 64]), plus bias[o] (`Cert.Dequant.result`).
  The kernel works on 56 blocks of 256 channels and obtains each feature's group values by multiplying the block's
  [256, 64] group values with the 0/1 matrix "g = k div 64", which it computes on the host first; on the extended reals
  that product selects exactly the group's value (0 · a = 0 for every a), so no finiteness of the inputs is used. The
  reference regroups the features as [64, 64], broadcasts the group values, and flattens back.

  The three frames are the generated ones (the reference's is its generated run with the result dropped); the ideal pass
  rewrote nothing, so `preserves` is trivial; `algebraic` sets the kernel's run (its output array is the specification
  function, block by block) beside the reference's run (its result term is the specification function, index by index).
-/
import proofs.«145249_j46265387712855_1_alg».proof.Defs
import proofs.«145249_j46265387712855_1_alg».proof.Proof.Gen.Kernel
import proofs.«145249_j46265387712855_1_alg».proof.Proof.Gen.Kernel.Skeleton
import proofs.«145249_j46265387712855_1_alg».proof.Proof.Gen.Kernel.Launch
import proofs.«145249_j46265387712855_1_alg».proof.Proof.Gen.Kernel.Points
import proofs.«145249_j46265387712855_1_alg».proof.Proof.Gen.Kernel.Frame
import proofs.«145249_j46265387712855_1_alg».proof.Proof.Gen.KernelIdeal
import proofs.«145249_j46265387712855_1_alg».proof.Proof.Gen.KernelIdeal.Skeleton
import proofs.«145249_j46265387712855_1_alg».proof.Proof.Gen.KernelIdeal.Launch
import proofs.«145249_j46265387712855_1_alg».proof.Proof.Gen.KernelIdeal.Points
import proofs.«145249_j46265387712855_1_alg».proof.Proof.Gen.KernelIdeal.Frame
import proofs.«145249_j46265387712855_1_alg».proof.Proof.Gen.ReferenceIdeal
import proofs.«145249_j46265387712855_1_alg».proof.Proof.Gen.Pre_finite_inputs
import proofs.«145249_j46265387712855_1_alg».proof.Proof.Gen.KernelIdeal.Value
import proofs.«145249_j46265387712855_1_alg».proof.Proof.Gen.ReferenceIdeal.Run
import proofs.«145249_j46265387712855_1_alg».proof.Proof.Gen.ReferenceIdeal.Read
import proofs.«145249_j46265387712855_1_alg».proof.Proof.DequantSpec
import proofs.«145249_j46265387712855_1_alg».proof.Proof.KernelBody
import proofs.«145249_j46265387712855_1_alg».proof.Proof.HostPrefix
import proofs.«145249_j46265387712855_1_alg».proof.Proof.KernelValue
import proofs.«145249_j46265387712855_1_alg».proof.Proof.RefValue
import Idealize.ShloMosaic.Adequacy
import Idealize.ShloMosaic.Init

noncomputable section

namespace Cert.Proof

open Idealize.ShloMosaic Idealize.SL.Sem

/-- The kernel as printed terminates without a fault and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, the kernel's output array and the reference's result are both the
    specification function of those arguments. -/
theorem algebraic : Cert.algebraic_KernelIdeal_ReferenceIdeal := by
  intro m ρ m' ρ' _ hagree
  refine ⟨fun c => Cert.KernelIdeal.Blocks.spec m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.ref_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
